-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v34_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128000 : Shape := ⟨2, ![64, 128000]⟩
abbrev S512 : Shape := ⟨1, ![512]⟩
abbrev S1000000 : Shape := ⟨1, ![1000000]⟩
abbrev S_ : Shape := ⟨0, ![]⟩

class Facts : Prop where
  bcast_S_S64x128000 : S_.BroadcastsInDim S64x128000 (![] : Fin 0 → Fin S64x128000.rank)
  reducesTo_S64x128000_S_d0_1 : S64x128000.ReducesTo [0, 1] S_
  h_S_ : 0 < S_.numel
  bcast_S_S512 : S_.BroadcastsInDim S512 (![] : Fin 0 → Fin S512.rank)
  reducesTo_S512_S_d0 : S512.ReducesTo [0] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S64x128000 .f32) (main_arg1 : FVec F S512 .f32) (main_arg2 : IVec S1000000 32) (main_arg3 : IVec S1000000 32) : IVec S_ 1 :=
  let main_v0 : FVec F S64x128000 .f32 := Host.absf main_arg0
  let main_cst : FVec F S_ .f32 := constant S_ .f32 0x7F800000#32
  let main_v1 : FVec F S64x128000 .f32 := broadcastInDim S64x128000 ![] bcast_S_S64x128000 main_cst
  let main_v2 : IVec S64x128000 1 := cmpf .olt main_v0 main_v1
  let main_c : IVec S_ 1 := constantI S_ 1 1#1
  let main_v3 : IVec S_ 1 := (fun x v => Host.reduce IntOp.andi x v reducesTo_S64x128000_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg3 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  main_v12
-- ==== Kernel.lean ====
abbrev S64x128000 : Shape := ⟨2, ![64, 128000]⟩
abbrev S512 : Shape := ⟨1, ![512]⟩
abbrev S1000000 : Shape := ⟨1, ![1000000]⟩
abbrev S_ : Shape := ⟨0, ![]⟩
abbrev S1000000x1 : Shape := ⟨2, ![1000000, 1]⟩
abbrev S128000 : Shape := ⟨1, ![128000]⟩
abbrev S1x128000 : Shape := ⟨2, ![1, 128000]⟩
abbrev S64x16000 : Shape := ⟨2, ![64, 16000]⟩
abbrev S1x16000 : Shape := ⟨2, ![1, 16000]⟩

abbrev nBuf : Space → Nat
  | .hbm => 53
  | .vmem => 8
  | .smem => 0
  | _ => 0

abbrev bufTy : (tb : Table) → Fin (tcTables nBuf tb) → BufTy
  | .hbm, ⟨0, _⟩ => ⟨S64x128000, .f32⟩
  | .hbm, ⟨1, _⟩ => ⟨S512, .f32⟩
  | .hbm, ⟨2, _⟩ => ⟨S1000000, .i32⟩
  | .hbm, ⟨3, _⟩ => ⟨S1000000, .i32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .f32⟩
  | .hbm, ⟨25, _⟩ => ⟨S128000, .f32⟩
  | .hbm, ⟨26, _⟩ => ⟨S1000000x1, .i32⟩
  | .hbm, ⟨27, _⟩ => ⟨S128000, .f32⟩
  | .hbm, ⟨28, _⟩ => ⟨S_, .f32⟩
  | .hbm, ⟨29, _⟩ => ⟨S512, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S_, .f32⟩
  | .hbm, ⟨39, _⟩ => ⟨S1000000, .f32⟩
  | .hbm, ⟨40, _⟩ => ⟨S512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x128000, .f32⟩
  | .hbm, ⟨51, _⟩ => ⟨S64x128000, .f32⟩
  | .hbm, ⟨52, _⟩ => ⟨S64x128000, .f32⟩
  | .local _ .vmem, ⟨0, _⟩ => ⟨S64x16000, .f32⟩
  | .local _ .vmem, ⟨1, _⟩ => ⟨S64x16000, .f32⟩
  | .local _ .vmem, ⟨2, _⟩ => ⟨S1x16000, .f32⟩
  | .local _ .vmem, ⟨3, _⟩ => ⟨S1x16000, .f32⟩
  | .local _ .vmem, ⟨4, _⟩ => ⟨S64x16000, .f32⟩
  | .local _ .vmem, ⟨5, _⟩ => ⟨S64x16000, .f32⟩
  | .local _ .vmem, ⟨6, _⟩ => ⟨S64x16000, .f32⟩
  | .local _ .vmem, ⟨7, _⟩ => ⟨S64x16000, .f32⟩
  | _, _ => ⟨S64x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S128000 : S_.BroadcastsInDim S128000 (![] : Fin 0 → Fin S128000.rank)
  reducesTo_S512_S_d0 : S512.ReducesTo [0] S_
  h_S_ : 0 < S_.numel
  shapeCasts_S128000_S1x128000 : S128000.ShapeCasts S1x128000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  inb_S64x16000_S64x16000_0_0 : ∀ a, (![0, 0] : Fin 2 → Nat) a + S64x16000.size a ≤ S64x16000.size a
  h_S64x16000 : 0 < S64x16000.numel
  broadcasts_S1x16000_S64x16000 : S1x16000.Broadcasts S64x16000
  gather_S512_S1000000x1_S1000000_n_0_n_n_0_1_1_wf : GatherDims.WF S512 S1000000x1 S1000000 [] [0] [] [0] [] 1 ![1]
  scatter_S128000_S1000000x1_S1000000_n_0_0_1_wf : ScatterDims.WF S128000 S1000000x1 S1000000 [] [0] [0] 1
  scatter_S512_S1000000x1_S1000000_n_0_0_1_wf : ScatterDims.WF S512 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16000.size a ≤ S64x128000.size a
  hwx0_0 : ∀ i : grid0.Coords, EltTy.bits .f32 = 32 ∨ (Rect.block (s := S64x128000) S64x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x128000.size a
  hwx0_1 : ∀ i : grid0.Coords, EltTy.bits .f32 = 32 ∨ (Rect.block (s := S1x128000) S1x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16000.size a ≤ S64x128000.size a
  hwx0_2 : ∀ i : grid0.Coords, EltTy.bits .f32 = 32 ∨ (Rect.block (s := S64x128000) S64x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16000.size a ≤ S64x128000.size a
  hwx0_3 : ∀ i : grid0.Coords, EltTy.bits .f32 = 32 ∨ (Rect.block (s := S64x128000) S64x16000.size (cc0_transform_3 i) (hinb0_3 i)).WholeWords (EltTy.packing .f32)

variable [Facts₀]

def gather_S512_S1000000x1_S1000000_n_0_n_n_0_1_1 : GatherDims S512 S1000000x1 S1000000 where
  offsetDims := []
  collapsedSliceDims := [0]
  operandBatchingDims := []
  startIndicesBatchingDims := []
  startIndexMap := [0]
  indexVectorDim := 1
  sliceSizes := ![1]
  wf := gather_S512_S1000000x1_S1000000_n_0_n_n_0_1_1_wf
def scatter_S128000_S1000000x1_S1000000_n_0_0_1 : ScatterDims S128000 S1000000x1 S1000000 where
  updateWindowDims := []
  insertedWindowDims := [0]
  scatterDimsToOperandDims := [0]
  indexVectorDim := 1
  wf := scatter_S128000_S1000000x1_S1000000_n_0_0_1_wf
def scatter_S512_S1000000x1_S1000000_n_0_0_1 : ScatterDims S512 S1000000x1 S1000000 where
  updateWindowDims := []
  insertedWindowDims := [0]
  scatterDimsToOperandDims := [0]
  indexVectorDim := 1
  wf := scatter_S512_S1000000x1_S1000000_n_0_0_1_wf

abbrev win0_0 : Pipeline.Window sig grid0 :=
  Pipeline.Window.ofSpec (Memref.whole main_arg0) S64x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34_0) S64x16000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34_1) S64x16000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128000 : Shape := ⟨2, ![64, 128000]⟩
abbrev S512 : Shape := ⟨1, ![512]⟩
abbrev S1000000 : Shape := ⟨1, ![1000000]⟩
abbrev S_ : Shape := ⟨0, ![]⟩
abbrev S1000000x1 : Shape := ⟨2, ![1000000, 1]⟩
abbrev S128000 : Shape := ⟨1, ![128000]⟩
abbrev S1x128000 : Shape := ⟨2, ![1, 128000]⟩

abbrev nBuf : Space → Nat
  | .hbm => 60
  | .vmem => 0
  | .smem => 0
  | _ => 0

abbrev bufTy : (tb : Table) → Fin (tcTables nBuf tb) → BufTy
  | .hbm, ⟨0, _⟩ => ⟨S64x128000, .f32⟩
  | .hbm, ⟨1, _⟩ => ⟨S512, .f32⟩
  | .hbm, ⟨2, _⟩ => ⟨S1000000, .i32⟩
  | .hbm, ⟨3, _⟩ => ⟨S1000000, .i32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .f32⟩
  | .hbm, ⟨25, _⟩ => ⟨S128000, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S128000, .f32⟩
  | .hbm, ⟨35, _⟩ => ⟨S1x128000, .f32⟩
  | .hbm, ⟨36, _⟩ => ⟨S64x128000, .f32⟩
  | .hbm, ⟨37, _⟩ => ⟨S64x128000, .f32⟩
  | .hbm, ⟨38, _⟩ => ⟨S_, .f32⟩
  | .hbm, ⟨39, _⟩ => ⟨S512, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S_, .f32⟩
  | .hbm, ⟨49, _⟩ => ⟨S1000000, .f32⟩
  | .hbm, ⟨50, _⟩ => ⟨S512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S64x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S128000 : S_.BroadcastsInDim S128000 (![] : Fin 0 → Fin S128000.rank)
  bcast_S128000_S1x128000_1 : S128000.BroadcastsInDim S1x128000 (![1] : Fin 1 → Fin S1x128000.rank)
  bcast_S1x128000_S64x128000_0_1 : S1x128000.BroadcastsInDim S64x128000 (![0, 1] : Fin 2 → Fin S64x128000.rank)
  reducesTo_S512_S_d0 : S512.ReducesTo [0] S_
  h_S_ : 0 < S_.numel
  gather_S512_S1000000x1_S1000000_n_0_n_n_0_1_1_wf : GatherDims.WF S512 S1000000x1 S1000000 [] [0] [] [0] [] 1 ![1]
  scatter_S128000_S1000000x1_S1000000_n_0_0_1_wf : ScatterDims.WF S128000 S1000000x1 S1000000 [] [0] [0] 1
  scatter_S512_S1000000x1_S1000000_n_0_0_1_wf : ScatterDims.WF S512 S1000000x1 S1000000 [] [0] [0] 1

variable [Facts₀]

def gather_S512_S1000000x1_S1000000_n_0_n_n_0_1_1 : GatherDims S512 S1000000x1 S1000000 where
  offsetDims := []
  collapsedSliceDims := [0]
  operandBatchingDims := []
  startIndicesBatchingDims := []
  startIndexMap := [0]
  indexVectorDim := 1
  sliceSizes := ![1]
  wf := gather_S512_S1000000x1_S1000000_n_0_n_n_0_1_1_wf
def scatter_S128000_S1000000x1_S1000000_n_0_0_1 : ScatterDims S128000 S1000000x1 S1000000 where
  updateWindowDims := []
  insertedWindowDims := [0]
  scatterDimsToOperandDims := [0]
  indexVectorDim := 1
  wf := scatter_S128000_S1000000x1_S1000000_n_0_0_1_wf
def scatter_S512_S1000000x1_S1000000_n_0_0_1 : ScatterDims S512 S1000000x1 S1000000 where
  updateWindowDims := []
  insertedWindowDims := [0]
  scatterDimsToOperandDims := [0]
  indexVectorDim := 1
  wf := scatter_S512_S1000000x1_S1000000_n_0_0_1_wf

class Facts : Prop extends Facts₀ where

variable [Facts]
-- ==== Proof.PreDecode.lean ====
/-
  What the precondition says of the token ids.

  The precondition is a conjunction of three `all`-reductions to one bit: the logits finite, the gate logits finite, and
  every token id `≥ 0` (signed). Its value being 1 makes each conjunct 1, and an `all` that is 1 had a 1 at every
  position: every token id tests non-negative.
-/
import proofs.«179296_j27685359190337_2_alg».proof.Pre_finite_inputs
import Idealize.ShloMosaic.Lib.ReduceAll

namespace Cert.TokenIds

open Idealize.ShloMosaic Cert.Pre_finite_inputs

/-- The rank-0 shape has one index. -/
instance : Subsingleton S_.Idx := ⟨fun _ _ => funext fun d => d.elim0⟩

/-- Under the precondition every token id tests `≥ 0` signed. -/
theorem nonneg_of_pre [Facts] {F : FTy → Type} [FloatOps F] (x0 : FVec F S64x128000 .f32) (x1 : FVec F S512 .f32)
    (x2 x3 : IVec S1000000 32) (h : fn (F := F) x0 x1 x2 x3 = fun _ => 1#1) (e : S1000000.Idx) :
    IntOp.cmpi .sge (x3 e) 0#32 = 1#1 := by
  have h0 := congrFun h (fun a => a.elim0)
  dsimp only [fn] at h0
  obtain ⟨-, h11⟩ := IntOp.andi_eq_one.1 h0
  exact Host.reduce_andi_all _ _ _ _ _ h11 e

end Cert.TokenIds
-- ==== Proof.Penalty.lean ====
/-
  The layer's three results as functions of its four arguments.

  With g the 512 gate logits, (rule id, token id) the 1,000,000 violation pairs and x the [64, 128000] logits:
    gate        σ(g) = 1 / (1 + exp(−g)), one per rule;
    pair value  ½ · σ(g) at the pair's rule (a negative rule id counted from the end, as array indexing does);
    penalty row at token v, the sum of the values of the pairs whose token id is v;
    modified    x[b, v] − penalty[v];   penalties  penalty[v] at every row b;
    coverage    −(Σ_r σ(g_r) · fires_r) / max(Σ_r fires_r, 1), fires_r = 1 when some pair names rule r.
  Only the last step of the first and third results is read entry by entry here (a row repeated down the batch, and a
  subtraction); the sums over pairs and over rules stay whole, as the operations that compute them.
-/
import proofs.«179296_j27685359190337_2_alg».proof.Proof.Gen.KernelIdeal
import Idealize.ShloMosaic.Lib.ValueIdx

noncomputable section

namespace Cert.Penalty

open Idealize.ShloMosaic Idealize.ShloMosaic.ValueIdx Cert.KernelIdeal Cert.KernelIdeal.Gen

variable {F : FTy → Type} [FloatOps F]

/-- The gate of each rule: σ(g) = 1 / (1 + exp(−g)). -/
def gates (g : FVec F S512 .f32) : FVec F S512 .f32 :=
  Host.divf (broadcastInDim S512 ![] bcast_S_S512 (constant (F := F) S_ .f32 0x3F800000#32))
    (addf (broadcastInDim S512 ![] bcast_S_S512 (constant (F := F) S_ .f32 0x3F800000#32)) (Host.exp (Host.negf g)))

/-- The rule ids as positions among the 512 rules: a negative id is counted from the end (512 added). -/
def ruleIdx (rid : IVec S1000000 32) : IVec S1000000x1 32 :=
  broadcastInDim S1000000x1 ![0] bcast_S1000000_S1000000x1_0
    (select (cmpi .slt rid (broadcastInDim S1000000 ![] bcast_S_S1000000 (constantI S_ 32 0#32)))
      (addi rid (broadcastInDim S1000000 ![] bcast_S_S1000000 (constantI S_ 32 512#32))) rid)

/-- The value each (rule, token) pair carries: half its rule's gate. -/
def pairVals (g : FVec F S512 .f32) (rid : IVec S1000000 32) : FVec F S1000000 .f32 :=
  mulf (Host.gather gather_S512_S1000000x1_S1000000_n_0_n_n_0_1_1 (gates g) (ruleIdx rid))
    (broadcastInDim S1000000 ![] bcast_S_S1000000 (constant (F := F) S_ .f32 0x3F000000#32))

/-- The penalty row: at each token, the sum of the values of the pairs whose token id — read as it stands, no wrap —
    is that token; a pair whose id names no token adds nothing. -/
def penRow (g : FVec F S512 .f32) (rid tid : IVec S1000000 32) : FVec F S128000 .f32 :=
  Host.scatterAdd scatter_S128000_S1000000x1_S1000000_n_0_0_1
    (broadcastInDim S128000 ![] bcast_S_S128000 (constant (F := F) S_ .f32 0x00000000#32))
    (broadcastInDim S1000000x1 ![0] bcast_S1000000_S1000000x1_0 tid) (pairVals g rid)

/-- Which rules fire: 1 at a rule some pair names, 0 elsewhere. -/
def firing (rid : IVec S1000000 32) : FVec F S512 .f32 :=
  Host.scatter scatter_S512_S1000000x1_S1000000_n_0_0_1 (fun _ b => b)
    (broadcastInDim S512 ![] bcast_S_S512 (constant (F := F) S_ .f32 0x00000000#32)) (ruleIdx rid)
    (broadcastInDim S1000000 ![] bcast_S_S1000000 (constant (F := F) S_ .f32 0x3F800000#32))

/-- The coverage loss: minus the gates summed over the firing rules, over the number of firing rules (at least 1). -/
def coverage (g : FVec F S512 .f32) (rid : IVec S1000000 32) : FVec F S_ .f32 :=
  Host.divf
    (Host.negf (Host.reduceAdd (mulf (gates g) (firing rid)) (constant (F := F) S_ .f32 0x00000000#32) reducesTo_S512_S_d0 h_S_))
    (maximumf (Host.reduceAdd (firing (F := F) rid) (constant (F := F) S_ .f32 0x00000000#32) reducesTo_S512_S_d0 h_S_)
      (constant (F := F) S_ .f32 0x3F800000#32))

/-- The token (column) an entry of a [64, 128000] array belongs to. -/
def col (i : S64x128000.Idx) : Fin 128000 := ⟨(i 1).val, (i 1).isLt⟩

/-- The logits less the penalty row, the row repeated down the 64 batch rows. -/
def modified (x : FVec F S64x128000 .f32) (p : FVec F S128000 .f32) : FVec F S64x128000 .f32 :=
  fun i => FloatOps.subf (x i) (p (ix1 (col i)))

/-- The penalty row repeated down the 64 batch rows. -/
def spread (p : FVec F S128000 .f32) : FVec F S64x128000 .f32 := fun i => p (ix1 (col i))

end Cert.Penalty

end
-- ==== Proof.HostPrefix.lean ====
/-
  What the host operations before the launch leave for it.

  Before the one launch the program computes, from the gate logits and the two id lists, the penalty row — a [128000]
  array, handed to the launch reshaped to one row [1, 128000] — and the coverage loss, a scalar the launch never touches.
  Both are the named functions of the arguments (the penalty row summed at the token ids as they stand).
-/
import proofs.«179296_j27685359190337_2_alg».proof.Proof.Gen.KernelIdeal.Frame
import proofs.«179296_j27685359190337_2_alg».proof.Proof.Penalty
import Idealize.ShloMosaic.Lib.StableHlo.Run

set_option maxRecDepth 8192

noncomputable section

namespace Cert.Penalty.Kernel

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The penalty row of the launch memory's arguments on core `c`. -/
abbrev pen (c : Dev nD) : FVec F S128000 .f32 :=
  penRow (F := F) (m ((c : Thread nD τ).loc main_arg1)) (m ((c : Thread nD τ).loc main_arg2)) (m ((c : Thread nD τ).loc main_arg3))

set_option maxHeartbeats 2000000 in
/-- The launch's second operand is the penalty row as one row. -/
theorem V_pen (c : Dev nD) :
    (V m c main_v33 : S1x128000.Idx → F .f32) = shapeCast S1x128000 (pen m c) shapeCasts_S128000_S1x128000 := by
  dsimp only [V, hostOps0]
  after_results_simp
  rfl

set_option maxHeartbeats 2000000 in
/-- The coverage loss is computed before the launch, from the gate logits and the rule ids. -/
theorem V_cov (c : Dev nD) :
    (V m c main_v32 : S_.Idx → F .f32)
      = coverage (F := F) (m ((c : Thread nD τ).loc main_arg1)) (m ((c : Thread nD τ).loc main_arg2)) := by
  dsimp only [V, hostOps0]
  after_results_simp
  rfl

end Cert.Penalty.Kernel

end
-- ==== Proof.KernelValue.lean ====
/-
  The launch's two output arrays, whole.

  The grid has 8 points; point t handles the 16000 columns [16000·t, 16000·(t+1)) of all 64 rows. There the body loads
  the logits block and the one-row penalty block and stores, in the first output's block, logits − penalty row (the row
  repeated down the batch), and in the second output's block the penalty row repeated. Entry (b, j) of point t's blocks is
  entry (b, 16000·t + j) of the arrays, and the penalty block's entry (0, j) is the penalty row at token 16000·t + j. The
  8 blocks tile the arrays, so each output array, whole, is the named function of the arguments.
-/
import proofs.«179296_j27685359190337_2_alg».proof.Proof.Gen.KernelIdeal.Value
import proofs.«179296_j27685359190337_2_alg».proof.Proof.HostPrefix
import Idealize.ShloMosaic.Lib.ValueLayout

set_option maxRecDepth 16384

noncomputable section

namespace Cert.Penalty.Kernel

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## One point's blocks, entry by entry -/

theorem zero_offsets : (![0, 0] : Fin 2 → Nat) = fun _ => 0 := funext fun a => by fin_cases a <;> rfl

/-- The first output's block after the body: the logits block less the penalty block's one row, entry by entry. -/
theorem out2_apply (x0 : Vec F S64x16000 .f32) (x1 : Vec F S1x16000 .f32) (y : S64x16000.Idx) :
    out0_2 x0 x1 y = FloatOps.subf (x0 y) (x1 (Cert.KernelIdeal.Value.ix2_1 y)) := by
  unfold out0_2
  refine (Cert.KernelIdeal.Value.canon2_eq (View.ld x0 r0_1) (View.ld x1 r0_0) y).trans ?_
  show FloatOps.subf (View.ld x0 r0_1 (Cert.KernelIdeal.Value.ix2_0 y)) (View.ld x1 r0_0 (Cert.KernelIdeal.Value.ix2_1 y)) = _
  have l0 : View.ld x0 r0_1 = x0 := View.ld_unit_zero (S := S64x16000) zero_offsets _ x0
  have l1 : View.ld x1 r0_0 = x1 := View.ld_unit_zero (S := S1x16000) zero_offsets _ x1
  have e : Cert.KernelIdeal.Value.ix2_0 y = y := by
    funext a; match a with | ⟨0, _⟩ => rfl | ⟨1, _⟩ => rfl
  rw [l0, l1, e]

/-- The second output's block after the body: the penalty block's one row at every row, entry by entry. -/
theorem out3_apply (x0 : Vec F S64x16000 .f32) (x1 : Vec F S1x16000 .f32) (y : S64x16000.Idx) :
    out0_3 x0 x1 y = x1 (Cert.KernelIdeal.Value.ix3_0 y) := by
  unfold out0_3
  refine (Cert.KernelIdeal.Value.canon3_eq (View.ld x1 r0_0) y).trans ?_
  show View.ld x1 r0_0 (Cert.KernelIdeal.Value.ix3_0 y) = _
  have l1 : View.ld x1 r0_0 = x1 := View.ld_unit_zero (S := S1x16000) zero_offsets _ x1
  rw [l1]

/-! ## Where a point's blocks lie -/

/-- Every window's block at point t is block (0, t) of its array (decided over the 8 points). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Every one of the 8 column blocks is some point's. -/
theorem idx_onto : ∀ q : Fin 8, ∃ t : Fin cfg0.N, t.val = q.val :=
  (by decide +kernel : ∀ q : Fin 8, ∃ t : Fin grid0.N, t.val = q.val)

/-- An index of the first output's array is in point t's block iff each coordinate is in the block's range. -/
theorem mem_blk2 (t : Fin cfg0.N) (i : S64x128000.Idx) :
    i ∈ ((cfg0.win 2).blk t).view.set ↔ ∀ a : Fin 2, win0_2.index t a * S64x16000.size a ≤ (i a).val ∧ (i a).val < win0_2.index t a * S64x16000.size a + S64x16000.size a := by
  show i ∈ ((View.whole main_v34_0).slice (win0_2.rect t)).set ↔ _
  rw [View.set_slice_whole, Rect.mem_set_unit]
  exact Iff.rfl

/-- The same for the second output's array. -/
theorem mem_blk3 (t : Fin cfg0.N) (i : S64x128000.Idx) :
    i ∈ ((cfg0.win 3).blk t).view.set ↔ ∀ a : Fin 2, win0_3.index t a * S64x16000.size a ≤ (i a).val ∧ (i a).val < win0_3.index t a * S64x16000.size a + S64x16000.size a := by
  show i ∈ ((View.whole main_v34_1).slice (win0_3.rect t)).set ↔ _
  rw [View.set_slice_whole, Rect.mem_set_unit]
  exact Iff.rfl

/-- The 8 blocks tile the first output's array: column j lies in the block of point j / 16000. -/
theorem cover2 (i : S64x128000.Idx) : ∃ t : Fin cfg0.N, (cfg0.win 2).flush t = true ∧ i ∈ ((cfg0.win 2).blk t).view.set := by
  have hi0 : (i 0).val < 64 := (i 0).isLt
  have hi1 : (i 1).val < 128000 := (i 1).isLt
  obtain ⟨t, ht⟩ := idx_onto ⟨(i 1).val / 16000, by omega⟩
  have ht' : t.val = (i 1).val / 16000 := ht
  obtain ⟨-, -, -, -, e0, e1, -, -⟩ := idx_facts t
  refine ⟨t, flush0_2 t, ?_⟩
  rw [mem_blk2]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 16000 ≤ (i 1).val ∧ (i 1).val < win0_2.index t (1 : Fin 2) * 16000 + 16000; omega

/-- The 8 blocks tile the second output's array. -/
theorem cover3 (i : S64x128000.Idx) : ∃ t : Fin cfg0.N, (cfg0.win 3).flush t = true ∧ i ∈ ((cfg0.win 3).blk t).view.set := by
  have hi0 : (i 0).val < 64 := (i 0).isLt
  have hi1 : (i 1).val < 128000 := (i 1).isLt
  obtain ⟨t, ht⟩ := idx_onto ⟨(i 1).val / 16000, by omega⟩
  have ht' : t.val = (i 1).val / 16000 := ht
  obtain ⟨-, -, -, -, -, -, e0, e1⟩ := idx_facts t
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 16000 ≤ (i 1).val ∧ (i 1).val < win0_3.index t (1 : Fin 2) * 16000 + 16000; omega

/-! ## What a point writes back is its block of the whole-array function -/

/-- Point t writes back, to the first output, block t of `logits − penalty row`. -/
theorem flushed2_eq (c : Dev nD) (t : Fin cfg0.N) :
    (dats m 0 c).flushed 2 t = ((cfg0.win 2).blk t).view.read (Elt F) (modified (V m c main_arg0) (pen m c)) := by
  rw [Cert.KernelIdeal.Value.flushed2]
  funext y
  show out0_2 (iblk m c 0 t) (iblk m c 1 t) y = modified (V m c main_arg0) (pen m c) (((cfg0.win 2).blk t).view.emb y)
  refine (out2_apply (iblk m c 0 t) (iblk m c 1 t) y).trans ?_
  show FloatOps.subf (V m c main_arg0 (((cfg0.win 0).blk t).view.emb y)) (V m c main_v33 (((cfg0.win 1).blk t).view.emb (Cert.KernelIdeal.Value.ix2_1 y)))
    = FloatOps.subf (V m c main_arg0 (((cfg0.win 2).blk t).view.emb y)) (pen m c (ix1 (col (((cfg0.win 2).blk t).view.emb y))))
  obtain ⟨a0, a1, b0, b1, c0, c1, -, -⟩ := idx_facts t
  have h0 : ((cfg0.win 0).blk t).view.emb y = ((cfg0.win 2).blk t).view.emb y := by
    funext a; apply Fin.ext
    match a with
    | ⟨0, _⟩ => show win0_0.index t (0 : Fin 2) * 64 + 1 * (y 0).val = win0_2.index t (0 : Fin 2) * 64 + 1 * (y 0).val; omega
    | ⟨1, _⟩ => show win0_0.index t (1 : Fin 2) * 16000 + 1 * (y 1).val = win0_2.index t (1 : Fin 2) * 16000 + 1 * (y 1).val; omega
  have h1 : ((cfg0.win 1).blk t).view.emb (Cert.KernelIdeal.Value.ix2_1 y) = ix2 (0 : Fin 1) (col (((cfg0.win 2).blk t).view.emb y)) := by
    funext a; apply Fin.ext
    match a with
    | ⟨0, _⟩ => show win0_1.index t (0 : Fin 2) * 1 + 1 * 0 = 0; omega
    | ⟨1, _⟩ => show win0_1.index t (1 : Fin 2) * 16000 + 1 * (y 1).val = win0_2.index t (1 : Fin 2) * 16000 + 1 * (y 1).val; omega
  rw [h0, h1, V_pen, shapeCast_a_1a_apply]

/-- Point t writes back, to the second output, block t of the penalty row repeated. -/
theorem flushed3_eq (c : Dev nD) (t : Fin cfg0.N) :
    (dats m 0 c).flushed 3 t = ((cfg0.win 3).blk t).view.read (Elt F) (spread (pen m c)) := by
  rw [Cert.KernelIdeal.Value.flushed3]
  funext y
  show out0_3 (iblk m c 0 t) (iblk m c 1 t) y = spread (pen m c) (((cfg0.win 3).blk t).view.emb y)
  refine (out3_apply (iblk m c 0 t) (iblk m c 1 t) y).trans ?_
  show V m c main_v33 (((cfg0.win 1).blk t).view.emb (Cert.KernelIdeal.Value.ix3_0 y))
    = pen m c (ix1 (col (((cfg0.win 3).blk t).view.emb y)))
  obtain ⟨-, -, b0, b1, -, -, d0, d1⟩ := idx_facts t
  have h1 : ((cfg0.win 1).blk t).view.emb (Cert.KernelIdeal.Value.ix3_0 y) = ix2 (0 : Fin 1) (col (((cfg0.win 3).blk t).view.emb y)) := by
    funext a; apply Fin.ext
    match a with
    | ⟨0, _⟩ => show win0_1.index t (0 : Fin 2) * 1 + 1 * 0 = 0; omega
    | ⟨1, _⟩ => show win0_1.index t (1 : Fin 2) * 16000 + 1 * (y 1).val = win0_3.index t (1 : Fin 2) * 16000 + 1 * (y 1).val; omega
  rw [h1, V_pen, shapeCast_a_1a_apply]

/-! ## The arrays after the run, and the run -/

/-- The first output array after the run: the launch memory's logits less the penalty row. -/
theorem final2 (c : Dev nD) :
    (dats m 0 c).arrAt 2 cfg0.N = modified (m ((c : Thread nD τ).loc main_arg0)) (pen m c) :=
  ((dats m 0 c).arrAt_eq_of_cover 2 (modified (V m c main_arg0) (pen m c)) (fun t _ => flushed2_eq m c t) cover2).trans
    (congrArg (fun x => modified x (pen m c)) (V_main_arg0 m c))

/-- The second output array after the run: the penalty row repeated down the batch. -/
theorem final3 (c : Dev nD) : (dats m 0 c).arrAt 3 cfg0.N = spread (pen m c) :=
  (dats m 0 c).arrAt_eq_of_cover 3 (spread (pen m c)) (fun t _ => flushed3_eq m c t) cover3

/-- Every weakly fair execution of the program terminates with the three results at their functions of the arguments —
    the two launch outputs, and the coverage loss, which the launch leaves as the host operations before it wrote it —
    and the arguments unchanged. -/
theorem run : θ_run defs (onTc (τ := τ) (main (F := F))) ⟨m, fun _ => 0, ρ⟩ fun r => ∀ c : Dev nD,
      r.2.mem ((c : Thread nD τ).loc main_v34_0) = modified (m ((c : Thread nD τ).loc main_arg0)) (pen m c)
      ∧ r.2.mem ((c : Thread nD τ).loc main_v32) = coverage (F := F) (m ((c : Thread nD τ).loc main_arg1)) (m ((c : Thread nD τ).loc main_arg2))
      ∧ r.2.mem ((c : Thread nD τ).loc main_v34_1) = spread (pen m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Cert.KernelIdeal.Value.post2 m r h c).trans (final2 m c),
      ((h c).2 main_v32 (Pipeline.mem_restRefs_of main_v32 (by decide) (by decide))).trans (V_cov m c),
      (Cert.KernelIdeal.Value.post3 m r h c).trans (final3 m c),
      Cert.KernelIdeal.Value.kept_main_arg0 m r h c,
      Cert.KernelIdeal.Value.kept_main_arg1 m r h c,
      Cert.KernelIdeal.Value.kept_main_arg2 m r h c,
      Cert.KernelIdeal.Value.kept_main_arg3 m r h c⟩)
    (run_main m ρ)

end Cert.Penalty.Kernel

end
-- ==== Proof.NonNegWrap.lean ====
/-
  The index wrap of a non-negative id is the id.

  Indexing an axis of extent n through `.at[ids]` first wraps a negative id by the extent: id ↦ (id < 0 ? id + n : id),
  on 32-bit words read signed. Where every id is non-negative the comparison is false at every position, so the wrapped
  vector is the vector of ids itself, whatever the extent that would have been added.
-/
import Idealize.ShloMosaic.PureOps
import Idealize.ShloMosaic.Lib.Affine

namespace Cert.TokenIds

open Idealize.ShloMosaic

/-- A word that tests `≥ 0` signed does not test `< 0` signed. -/
theorem not_slt_zero {w : BitVec 32} (h : IntOp.cmpi .sge w 0#32 = 1#1) : ¬ IntOp.cmpi .slt w 0#32 = 1#1 := by
  rw [IntOp.cmpi_sge] at h
  rw [IntOp.cmpi_slt]
  omega

/-- The wrap `select (ids < 0) (ids + ext) ids` of a vector of non-negative ids is the vector itself. -/
theorem wrap_eq_self {s : Shape} (ids zero ext : IVec s 32) (hz : ∀ e, zero e = 0#32)
    (h : ∀ e, IntOp.cmpi .sge (ids e) 0#32 = 1#1) :
    select (cmpi .slt ids zero) (addi ids ext) ids = ids := by
  funext e
  show Scalar.select (IntOp.cmpi .slt (ids e) (zero e)) (IntOp.addi (ids e) (ext e)) (ids e) = ids e
  rw [hz e]
  exact if_neg (not_slt_zero (h e))

end Cert.TokenIds
-- ==== Proof.RefValue.lean ====
/-
  The reference's three results are the same functions of the arguments, once no token id is negative.

  The reference builds its penalty row with `.at[token_ids].add`, which wraps a negative token id by 128000 before
  summing; where every token id is non-negative the wrap changes nothing, so its penalty row is the row summed at the ids
  as they stand. The rest is the same text on both sides: the row is repeated down the batch through a [1, 128000] view
  (entry (b, v) reads the row at v) and subtracted from the logits, and the coverage loss never sees a token id.
-/
import proofs.«179296_j27685359190337_2_alg».proof.Proof.Gen.ReferenceIdeal.Read
import proofs.«179296_j27685359190337_2_alg».proof.Proof.Penalty
import proofs.«179296_j27685359190337_2_alg».proof.Proof.NonNegWrap

noncomputable section

namespace Cert.Penalty.Ref

open Idealize.ShloMosaic Idealize.ShloMosaic.ValueIdx Cert.ReferenceIdeal Cert.ReferenceIdeal.Read

variable {F : FTy → Type} [FloatOps F]

/-- Entry (b, v) of the repeated row reads the row at token v. -/
theorem col_eq (i : S64x128000.Idx) : idx_main_v23 (idx_main_v24 i) = ix1 (col i) := by
  funext a; match a with | ⟨0, _⟩ => rfl

/-- With no negative token id the wrapped ids are the ids. -/
theorem wrapped_ids (x3 : IVec S1000000 32) (h : ∀ e, IntOp.cmpi .sge (x3 e) 0#32 = 1#1) :
    val_main_v20 (F := F) x3 = x3 :=
  Cert.TokenIds.wrap_eq_self x3 (val_main_v16 (F := F)) (val_main_v18 (F := F)) (fun _ => rfl) h

/-- So the reference's penalty row is the row summed at the ids as they stand. -/
theorem pen_eq (x1 : FVec F S512 .f32) (x2 x3 : IVec S1000000 32) (h : ∀ e, IntOp.cmpi .sge (x3 e) 0#32 = 1#1) :
    val_main_v22 (F := F) x1 x2 x3 = penRow (F := F) x1 x2 x3 := by
  unfold val_main_v22 val_main_v21
  rw [wrapped_ids x3 h]
  rfl

/-- The reference's first result: the logits less the penalty row. -/
theorem modified_eq (x0 : FVec F S64x128000 .f32) (x1 : FVec F S512 .f32) (x2 x3 : IVec S1000000 32)
    (h : ∀ e, IntOp.cmpi .sge (x3 e) 0#32 = 1#1) :
    val_main_v25 (F := F) x0 x1 x2 x3 = modified x0 (penRow (F := F) x1 x2 x3) := by
  funext i
  rw [val_main_v25_apply, val_main_v24_apply, val_main_v23_apply, pen_eq x1 x2 x3 h, col_eq]
  rfl

/-- The reference's third result: the penalty row repeated down the batch. -/
theorem spread_eq (x1 : FVec F S512 .f32) (x2 x3 : IVec S1000000 32) (h : ∀ e, IntOp.cmpi .sge (x3 e) 0#32 = 1#1) :
    val_main_v24 (F := F) x1 x2 x3 = spread (penRow (F := F) x1 x2 x3) := by
  funext i
  rw [val_main_v24_apply, val_main_v23_apply, pen_eq x1 x2 x3 h, col_eq]
  rfl

/-- The reference's second result: the coverage loss, the same operations of the gate logits and the rule ids. -/
theorem coverage_eq (x1 : FVec F S512 .f32) (x2 : IVec S1000000 32) :
    val_main_v40 (F := F) x1 x2 = coverage (F := F) x1 x2 := rfl

end Cert.Penalty.Ref

end
-- ==== Proof.lean ====
/-
  A logic layer's penalty step: a Pallas kernel against its jnp reference, equal over the extended reals.

  From gate logits g (512 rules), 1,000,000 (rule id, token id) pairs and logits x of shape [64, 128000], both programs
  return  modified = x − penalty row (the row repeated down the 64 batch rows),  a scalar coverage loss, and
  penalties = the penalty row repeated, where the penalty row at token v is the sum of ½·σ(g) at the pair's rule over
  the pairs whose token id is v.

  The two differ in one place. The reference sums with `.at[token_ids].add`, which first wraps a negative token id by
  128000; the kernel program sums with a segment sum, which takes the ids as they stand (a pair whose id names no token adds
  nothing). With a token id of −1 the reference adds that pair's value at token 127999 and the kernel program adds it
  nowhere, so the claim needs the token ids to be non-negative: that is the precondition's third conjunct, and the one
  law used is that wrapping a non-negative id leaves it unchanged. Nothing else separates the two sides: the gates, the
  pair values and the coverage loss are the same operations of the same arguments, and the kernel's launch only
  subtracts the (already summed) penalty row from the logits, 16000 columns per grid point, the 8 blocks tiling the
  arrays. No law of extended-real arithmetic is needed, and the finiteness of the float inputs is never used.

  The kernel's frames are the generated ones; the reference's frame is its generated run with the results dropped; the
  idealization rewrote no operation, so there is nothing to preserve.
-/
import proofs.«179296_j27685359190337_2_alg».proof.Defs
import proofs.«179296_j27685359190337_2_alg».proof.Proof.Gen.Kernel
import proofs.«179296_j27685359190337_2_alg».proof.Proof.Gen.Kernel.Skeleton
import proofs.«179296_j27685359190337_2_alg».proof.Proof.Gen.Kernel.Launch
import proofs.«179296_j27685359190337_2_alg».proof.Proof.Gen.Kernel.Points
import proofs.«179296_j27685359190337_2_alg».proof.Proof.Gen.Kernel.Frame
import proofs.«179296_j27685359190337_2_alg».proof.Proof.Gen.KernelIdeal
import proofs.«179296_j27685359190337_2_alg».proof.Proof.Gen.KernelIdeal.Skeleton
import proofs.«179296_j27685359190337_2_alg».proof.Proof.Gen.KernelIdeal.Launch
import proofs.«179296_j27685359190337_2_alg».proof.Proof.Gen.KernelIdeal.Points
import proofs.«179296_j27685359190337_2_alg».proof.Proof.Gen.KernelIdeal.Frame
import proofs.«179296_j27685359190337_2_alg».proof.Proof.Gen.ReferenceIdeal
import proofs.«179296_j27685359190337_2_alg».proof.Proof.Gen.Pre_finite_inputs
import proofs.«179296_j27685359190337_2_alg».proof.Proof.Gen.KernelIdeal.Value
import proofs.«179296_j27685359190337_2_alg».proof.Proof.Gen.ReferenceIdeal.Run
import proofs.«179296_j27685359190337_2_alg».proof.Proof.Gen.ReferenceIdeal.Read
import proofs.«179296_j27685359190337_2_alg».proof.Proof.PreDecode
import proofs.«179296_j27685359190337_2_alg».proof.Proof.KernelValue
import proofs.«179296_j27685359190337_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments, with no negative token id, both programs end with the logits less the
    penalty row, the coverage loss, and the penalty row repeated: the kernel program by its run read block by block, the
    reference by its run read one operation at a time, its wrapped token ids being the ids themselves. -/
theorem algebraic : Cert.algebraic_KernelIdeal_ReferenceIdeal := by
  intro m ρ m' ρ' hpre hagree
  refine ⟨_, _, _, Cert.Penalty.Kernel.run (F := Ideal) m ρ, ?_⟩
  refine (θ_run Cert.ReferenceIdeal.defs _ _).mono (fun _ h c => ?_) (Cert.ReferenceIdeal.Value.run (F := Ideal) m' ρ')
  obtain ⟨h0, h1, h2, k0, k1, k2, k3⟩ := h c
  obtain ⟨e0, e1, e2, e3⟩ := hagree c
  have hn := Cert.TokenIds.nonneg_of_pre (F := Ideal) _ _ _ _ (hpre c)
  refine ⟨h0.trans ?_, h1.trans ?_, h2.trans ?_, k0, k1, k2, k3⟩
  · rw [e0, e1, e2, e3, Cert.ReferenceIdeal.Read.val_main_v25_eq]
    exact Cert.Penalty.Ref.modified_eq _ _ _ _ hn
  · rw [e1, e2, Cert.ReferenceIdeal.Read.val_main_v40_eq]
    exact Cert.Penalty.Ref.coverage_eq _ _
  · rw [e1, e2, e3, Cert.ReferenceIdeal.Read.val_main_v24_eq]
    exact Cert.Penalty.Ref.spread_eq _ _ _ hn

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
